-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S2x640000 32) (main_arg2 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S2x640000 : Shape := ⟨2, ![2, 640000]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 42
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S1x640000, .i32⟩
  | .hbm, ⟨4, _⟩ => ⟨S640000, .i32⟩
  | .hbm, ⟨5, _⟩ => ⟨S1x640000, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S50000x128, .f32⟩
  | .hbm, ⟨18, _⟩ => ⟨S640000x1, .i32⟩
  | .hbm, ⟨19, _⟩ => ⟨S50000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S50000, .f32⟩
  | .hbm, ⟨24, _⟩ => ⟨S640000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S2000x256, .f32⟩
  | .local _ .vmem, ⟨6, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S50000x128, .f32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S50000x128, .f32⟩
  | .hbm, ⟨19, _⟩ => ⟨S640000x1, .i32⟩
  | .hbm, ⟨20, _⟩ => ⟨S50000x128, .f32⟩
  | .hbm, ⟨21, _⟩ => ⟨S_, .f32⟩
  | .hbm, ⟨22, _⟩ => ⟨S640000, .f32⟩
  | .hbm, ⟨23, _⟩ => ⟨S1x640000, .i32⟩
  | .hbm, ⟨24, _⟩ => ⟨S640000, .i32⟩
  | .hbm, ⟨25, _⟩ => ⟨S_, .f32⟩
  | .hbm, ⟨26, _⟩ => ⟨S50000, .f32⟩
  | .hbm, ⟨27, _⟩ => ⟨S640000x1, .i32⟩
  | .hbm, ⟨28, _⟩ => ⟨S50000, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .i1⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_0_0 : S2x640000.Slices ![0, 0] S1x640000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

class Facts : Prop extends Facts₀ where

variable [Facts]
-- ==== Proof.Spec.lean ====
/-
  The function of the argument arrays that both programs compute, index by index, on the extended reals.

  A graph-convolution layer: from a feature array `f` (n rows of 128 entries), an array `a` of the same shape (each
  row the mean of the row's neighbours' features) and a weight matrix `w` (128 × 128) the layer's output has n rows
  of 256 entries. Entry (r, j) with j < 128 is max(∑ₖ f[r,k]·w[k,j], 0): the row's own features through the
  weights, clamped below at zero. Entry (r, 128 + j) is max(∑ₖ a[r,k]·w[k,j], 0): the same of the row of `a`.
  Each entry depends on ONE row of `f` or `a` and one column of `w`, so the rows r₀ ≤ r < r₀ + n' of the output
  are the same function of the rows r₀ ≤ r < r₀ + n' of `f` and `a` (`conv_restrict`): the output can be
  computed one block of rows at a time. Only sums, products and maxima of extended reals occur, all total; no
  law is used that needs a finite operand.
-/
import Idealize.ShloMosaic.PureOps.Ideal
import Idealize.ShloMosaic.Lib.ValueIdx

noncomputable section

open scoped BigOperators

namespace Cert.GraphConv

open Idealize.ShloMosaic Idealize.ShloMosaic.ValueIdx

/-- Row `r` of `x` (n rows of 128) against column `j` of the weight matrix: ∑ₖ x[r,k]·w[k,j]. -/
def rowDot {n : Nat} (x : (⟨2, ![n, 128]⟩ : Shape).Idx → EReal) (w : (⟨2, ![128, 128]⟩ : Shape).Idx → EReal)
    (r : Fin n) (j : Fin 128) : EReal :=
  ∑ k : Fin 128, x (ix2 r k) * w (ix2 k j)

/-- The column of the weight matrix that output column `j` (of 256) reads: `j` in the left half, `j - 128` in the right. -/
def wcol (j : Fin 256) : Fin 128 := ⟨j.val % 128, Nat.mod_lt _ (by decide)⟩

theorem wcol_left (j : Fin 256) (h : j.val < 128) : wcol j = ⟨j.val, h⟩ := Fin.ext (Nat.mod_eq_of_lt h)

theorem wcol_right (j : Fin 256) (h : ¬ j.val < 128) : wcol j = ⟨j.val - 128, by have := j.isLt; omega⟩ :=
  Fin.ext (by show j.val % 128 = j.val - 128; have := j.isLt; omega)

/-- The output's entry in row `r`, column `j`: the left half reads the row of `f`, the right half the row of `a`. -/
def convAt {n : Nat} (f a : (⟨2, ![n, 128]⟩ : Shape).Idx → EReal) (w : (⟨2, ![128, 128]⟩ : Shape).Idx → EReal)
    (r : Fin n) (j : Fin 256) : EReal :=
  if j.val < 128 then max (rowDot f w r (wcol j)) 0 else max (rowDot a w r (wcol j)) 0

/-- The layer's output as one array. -/
def conv {n : Nat} (f a : (⟨2, ![n, 128]⟩ : Shape).Idx → EReal) (w : (⟨2, ![128, 128]⟩ : Shape).Idx → EReal) :
    (⟨2, ![n, 256]⟩ : Shape).Idx → EReal :=
  fun i => convAt f a w ⟨(i 0).val, idx2_lt0 i⟩ ⟨(i 1).val, idx2_lt1 i⟩

theorem conv_ix2 {n : Nat} (f a : (⟨2, ![n, 128]⟩ : Shape).Idx → EReal) (w : (⟨2, ![128, 128]⟩ : Shape).Idx → EReal)
    (r : Fin n) (j : Fin 256) : conv f a w (ix2 r j) = convAt f a w r j := rfl

/-- A block of rows of the output is the output of the blocks of rows: if `e0`, `e1`, `e3` move row `r` of a block
    to row `sh r` of the arrays, columns unchanged, and `e2` moves nothing, then the layer of the arrays read
    through `e0`, `e1`, `e2` is the layer of the arrays read through `e3`. -/
theorem conv_restrict {n N : Nat} (f a : (⟨2, ![N, 128]⟩ : Shape).Idx → EReal) (w : (⟨2, ![128, 128]⟩ : Shape).Idx → EReal)
    (sh : Fin n → Fin N)
    (e0 e1 : (⟨2, ![n, 128]⟩ : Shape).Idx → (⟨2, ![N, 128]⟩ : Shape).Idx)
    (e2 : (⟨2, ![128, 128]⟩ : Shape).Idx → (⟨2, ![128, 128]⟩ : Shape).Idx)
    (e3 : (⟨2, ![n, 256]⟩ : Shape).Idx → (⟨2, ![N, 256]⟩ : Shape).Idx)
    (h0 : ∀ (r : Fin n) (k : Fin 128), e0 (ix2 r k) = ix2 (sh r) k)
    (h1 : ∀ (r : Fin n) (k : Fin 128), e1 (ix2 r k) = ix2 (sh r) k)
    (h2 : ∀ (k j : Fin 128), e2 (ix2 k j) = ix2 k j)
    (h3 : ∀ (r : Fin n) (j : Fin 256), e3 (ix2 r j) = ix2 (sh r) j)
    (y : (⟨2, ![n, 256]⟩ : Shape).Idx) :
    conv (fun x => f (e0 x)) (fun x => a (e1 x)) (fun z => w (e2 z)) y = conv f a w (e3 y) := by
  obtain ⟨p, q, rfl⟩ : ∃ (p : Fin n) (q : Fin 256), y = ix2 p q := ⟨y 0, y 1, eq_ix2 y⟩
  rw [h3 p q, conv_ix2, conv_ix2]
  unfold convAt rowDot
  simp only [h0, h1, h2]

end Cert.GraphConv

end
-- ==== Proof.RefValue.lean ====
/-
  The reference on the extended reals, index by index. Its result is max(·, 0) of the two matrix products
  features·weight and aggregated·weight laid side by side along the columns, where `aggregated` is the array the
  reference computes from the features and the edge list (each row the mean of the row's neighbours' features; the
  stage `val_main_v29` of the reference's run, never opened here). A host matrix product at an entry is the plain sum
  over the 128 contracted positions, a column of the joined array is a column of the left product when it is below
  128 and of the right product, 128 less, otherwise: so the result is the graph-convolution layer
  (`Cert.GraphConv.conv`) of the features, that aggregated array and the weights.
-/
import proofs.«154609_j27951647162602_1_alg».proof.Proof.RefRead
import proofs.«154609_j27951647162602_1_alg».proof.Proof.Spec

noncomputable section

open scoped BigOperators

namespace Cert.ReferenceIdeal.RefValue

open Cert.ReferenceIdeal Cert.ReferenceIdeal.ReadP Idealize.ShloMosaic Idealize.ShloMosaic.ValueIdx Cert.GraphConv

/-- features·weight at entry (r, j). -/
theorem self_at (x0 : (⟨S50000x128, .f32⟩ : BufTy).Contents (Elt Ideal)) (x2 : (⟨S128x128, .f32⟩ : BufTy).Contents (Elt Ideal))
    (r : Fin 50000) (j : Fin 128) : val_main_v0 (F := Ideal) x0 x2 (ix2 r j) = rowDot x0 x2 r j := by
  rw [val_main_v0_apply]
  unfold rowDot
  refine Finset.sum_congr rfl fun k _ => ?_
  have el : lidx_main_v0 (ix2 r j) k = ix2 r k := funext fun a => by
    match a with
    | ⟨0, _⟩ => rfl
    | ⟨1, _⟩ => rfl
  have er : ridx_main_v0 (ix2 r j) k = ix2 k j := funext fun a => by
    match a with
    | ⟨0, _⟩ => rfl
    | ⟨1, _⟩ => rfl
  rw [el, er]

/-- aggregated·weight at entry (r, j). -/
theorem agg_at (x0 : (⟨S50000x128, .f32⟩ : BufTy).Contents (Elt Ideal)) (x1 : (⟨S2x640000, .i32⟩ : BufTy).Contents (Elt Ideal))
    (x2 : (⟨S128x128, .f32⟩ : BufTy).Contents (Elt Ideal)) (r : Fin 50000) (j : Fin 128) :
    val_main_v30 (F := Ideal) x0 x1 x2 (ix2 r j) = rowDot (val_main_v29 (F := Ideal) x0 x1) x2 r j := by
  rw [val_main_v30_apply]
  unfold rowDot
  refine Finset.sum_congr rfl fun k _ => ?_
  have el : lidx_main_v30 (ix2 r j) k = ix2 r k := funext fun a => by
    match a with
    | ⟨0, _⟩ => rfl
    | ⟨1, _⟩ => rfl
  have er : ridx_main_v30 (ix2 r j) k = ix2 k j := funext fun a => by
    match a with
    | ⟨0, _⟩ => rfl
    | ⟨1, _⟩ => rfl
  rw [el, er]

/-- The reference's result is the layer of the features, its aggregated array and the weights. -/
theorem result_eq (x0 : (⟨S50000x128, .f32⟩ : BufTy).Contents (Elt Ideal)) (x1 : (⟨S2x640000, .i32⟩ : BufTy).Contents (Elt Ideal))
    (x2 : (⟨S128x128, .f32⟩ : BufTy).Contents (Elt Ideal)) :
    val_main_v32 (F := Ideal) x0 x1 x2 = conv x0 (val_main_v29 (F := Ideal) x0 x1) x2 := by
  funext i
  obtain ⟨r, j, rfl⟩ : ∃ (r : Fin 50000) (j : Fin 256), i = ix2 r j := ⟨i 0, i 1, eq_ix2 i⟩
  have hzero : val_main_call1_v0 (F := Ideal) (ix2 r j) = 0 := by
    rw [val_main_call1_v0_apply, val_main_call1_cst_apply]; exact Ideal.ofBits_zero_f32
  rw [conv_ix2, val_main_v32_apply, hzero]
  show max (val_main_v31 (F := Ideal) x0 x1 x2 (ix2 r j)) 0 = _
  unfold convAt
  by_cases h : j.val < 128
  · rw [if_pos h, wcol_left j h]
    have hc : val_main_v31 (F := Ideal) x0 x1 x2 (ix2 r j) = val_main_v0 (F := Ideal) x0 x2 (ix2 r (⟨j.val, h⟩ : Fin 128)) := by
      unfold val_main_v31
      exact concatenate_pair_apply_left (t := S50000x256) (s₁ := S50000x128) (s₂ := S50000x128) (1 : Fin 2) _ _ _ (ix2 r j) rfl
        (ix2 r (⟨j.val, h⟩ : Fin 128)) (fun b => by
          match b with
          | ⟨0, _⟩ => rfl
          | ⟨1, _⟩ => rfl)
    rw [hc, self_at]
  · rw [if_neg h, wcol_right j h]
    have hj : j.val - 128 < 128 := by have := j.isLt; omega
    have hc : val_main_v31 (F := Ideal) x0 x1 x2 (ix2 r j) = val_main_v30 (F := Ideal) x0 x1 x2 (ix2 r (⟨j.val - 128, hj⟩ : Fin 128)) := by
      unfold val_main_v31
      exact concatenate_pair_apply_right (t := S50000x256) (s₁ := S50000x128) (s₂ := S50000x128) (1 : Fin 2) _ _ _ (ix2 r j) rfl rfl
        (ix2 r (⟨j.val - 128, hj⟩ : Fin 128)) (fun b hb => by
          match b, hb with
          | ⟨0, _⟩, _ => rfl
          | ⟨1, _⟩, hb => exact absurd rfl hb)
        (by show (j.val - 128) + 128 = j.val; omega)
    rw [hc, agg_at]

end Cert.ReferenceIdeal.RefValue

end
-- ==== Proof.KernelBlock.lean ====
/-
  One grid point of the kernel, on the extended reals: from the point's block of 2000 rows of the features, its block
  of 2000 rows of the aggregated neighbour features and the whole weight matrix, the body writes a 2000 × 256 block
  in two pieces — columns 0..127 hold max(x·w, 0) of the feature rows, columns 128..255 hold max(y·w, 0) of the
  aggregated rows. Each product is a matrix product into a zero accumulator, so an entry is the plain sum over the
  128 contracted positions; the narrowing of the operands to bf16 before the product changes nothing on the
  extended reals. The two pieces tile the block, so the block the body leaves is the graph-convolution layer
  (`Cert.GraphConv.conv`) of the three loaded blocks.
-/
import proofs.«154609_j27951647162602_1_alg».proof.Proof.Gen.KernelIdeal.Frame
import proofs.«154609_j27951647162602_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.GraphConv

/-- The body's matrix product: rows of a 2000 × 128 block against a 128 × 128 matrix, one contracted axis. -/
abbrev D : DotDims S2000x128 S128x128 S2000x128 := dot_S2000x128_S128x128_S2000x128_1_0_0_1_n_n

/-! ## The product's operand indices: the left operand is read along the output's row, the right along its column -/

theorem lhs_row (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_contr (i : S2000x128.Idx) (q : D.contr.Idx) : (D.lhsIdx i q 1).val = (q ⟨0, by decide⟩).val :=
  D.lhsIdx_val_of_single rfl i q
theorem rhs_contr (i : S2000x128.Idx) (q : D.contr.Idx) : (D.rhsIdx i q 0).val = (q ⟨0, by decide⟩).val :=
  D.rhsIdx_val_of_single rfl i q
theorem rhs_col (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The product into a zero accumulator, at entry (r, j): the sum over the contracted position k of x[r,k]·w[k,j]. -/
theorem matmul_at (x : FVec Ideal S2000x128 .bf16) (w : FVec Ideal S128x128 .bf16) (r : Fin 2000) (j : Fin 128) :
    matmul D none x w (constant S2000x128 .f32 0x00000000#32) (ix2 r j) = ∑ k : Fin 128, x (ix2 r k) * w (ix2 k j) := by
  refine (Ideal.matmul_constant_zero_apply D none x w (ix2 r j)).trans ?_
  rw [← Equiv.sum_comp (contrEquiv1 D 128 rfl rfl).symm]
  refine Finset.sum_congr rfl fun k _ => ?_
  have hk := contrEquiv1_symm_val D 128 rfl rfl k
  have el : D.lhsIdx (ix2 r j) ((contrEquiv1 D 128 rfl rfl).symm k) = ix2 r k := funext fun a => Fin.ext (by
    match a with
    | ⟨0, _⟩ => exact lhs_row _ _
    | ⟨1, _⟩ => exact (lhs_contr _ _).trans hk)
  have er : D.rhsIdx (ix2 r j) ((contrEquiv1 D 128 rfl rfl).symm k) = ix2 k j := funext fun a => Fin.ext (by
    match a with
    | ⟨0, _⟩ => exact (rhs_contr _ _).trans hk
    | ⟨1, _⟩ => exact rhs_col _ _)
  rw [el, er]

/-! ## The two stored values at an entry -/

/-- The value stored to columns 0..127: max(x·w, 0) of the feature rows. -/
theorem left_at (w : Vec Ideal S128x128 .f32) (x : Vec Ideal S2000x128 .f32) (r : Fin 2000) (j : Fin 128) :
    k0_pay2 w x (ix2 r j) = max (rowDot x w r j) 0 := by
  unfold k0_pay2 k0_pay1
  refine (maximumf_apply _ _ (ix2 r j)).trans ?_
  refine congrArg₂ max ((matmul_at _ _ r j).trans rfl) ?_
  exact Ideal.ofBits_zero_f32

/-- The value stored to columns 128..255: max(y·w, 0) of the aggregated rows (the body's cast of the block to its
    own shape is the identity). -/
theorem right_at (w : Vec Ideal S128x128 .f32) (y : Vec Ideal S2000x128 .f32) (r : Fin 2000) (j : Fin 128) :
    k0_pay3 w y (ix2 r j) = max (rowDot y w r j) 0 := by
  unfold k0_pay3 k0_pay1
  rw [shapeCast_self]
  refine (maximumf_apply _ _ (ix2 r j)).trans ?_
  refine congrArg₂ max ((matmul_at _ _ r j).trans rfl) ?_
  exact Ideal.ofBits_zero_f32

/-! ## The block the body leaves -/

theorem hz : (![0, 0] : Fin 2 → Nat) = fun _ => 0 := funext fun a => by fin_cases a <;> rfl

/-- The block the body leaves from the three loaded blocks is the layer of those blocks: each of the two stores'
    values is the layer's at the entry its rectangle places it at, and the two rectangles cover the block. -/
theorem out_eq (x0 x1 : Vec Ideal S2000x128 .f32) (x2 : Vec Ideal S128x128 .f32) :
    out0_3 x0 x1 x2 = conv x0 x1 x2 := by
  funext y
  unfold out0_3
  simp only [View.ld_unit_zero (S := S128x128) hz, View.ld_unit_zero (S := S2000x128) hz]
  refine View.canon_apply_of_pieces (Val := Elt Ideal) (conv x0 x1 x2) _ ?_ y (cover0_3 _ _ y)
  intro p hp x
  rcases List.mem_cons.mp hp with rfl | hp
  · -- the later store: columns 128..255
    obtain ⟨r, j, rfl⟩ : ∃ (r : Fin 2000) (j : Fin 128), x = ix2 r j := ⟨x 0, x 1, eq_ix2 x⟩
    have he : r0_3.emb (ix2 r j) = ix2 r (⟨128 + j.val, by have := j.isLt; omega⟩ : Fin 256) := by
      funext a; apply Fin.ext
      match a with
      | ⟨0, _⟩ => show 0 + 1 * r.val = r.val; omega
      | ⟨1, _⟩ => show 128 + 1 * j.val = 128 + j.val; omega
    show k0_pay3 x2 x1 (ix2 r j) = conv x0 x1 x2 (r0_3.emb (ix2 r j))
    rw [he, conv_ix2, right_at]
    unfold convAt
    have hn : ¬ ((⟨128 + j.val, by have := j.isLt; omega⟩ : Fin 256).val < 128) := by show ¬ (128 + j.val < 128); omega
    rw [if_neg hn, wcol_right _ hn]
    exact congrArg (fun c => max (rowDot x1 x2 r c) 0) (Fin.ext (by show j.val = 128 + j.val - 128; omega))
  · rcases List.mem_cons.mp hp with rfl | hp
    · -- the earlier store: columns 0..127
      obtain ⟨r, j, rfl⟩ : ∃ (r : Fin 2000) (j : Fin 128), x = ix2 r j := ⟨x 0, x 1, eq_ix2 x⟩
      have he : r0_2.emb (ix2 r j) = ix2 r (⟨j.val, by have := j.isLt; omega⟩ : Fin 256) := by
        funext a; apply Fin.ext
        match a with
        | ⟨0, _⟩ => show 0 + 1 * r.val = r.val; omega
        | ⟨1, _⟩ => show 0 + 1 * j.val = j.val; omega
      show k0_pay2 x2 x0 (ix2 r j) = conv x0 x1 x2 (r0_2.emb (ix2 r j))
      rw [he, conv_ix2, left_at]
      unfold convAt
      have hl : (⟨j.val, by have := j.isLt; omega⟩ : Fin 256).val < 128 := j.isLt
      rw [if_pos hl, wcol_left _ hl]
    · exact absurd hp (List.not_mem_nil)

end Cert.KernelIdeal.Block

end
-- ==== Proof.KernelValue.lean ====
/-
  The kernel's result array on the extended reals. The grid has 25 points; point t reads rows 2000·t .. 2000·t + 1999
  of the features and of the aggregated neighbour features (the array the host operations before the kernel leave,
  never opened here), the whole weight matrix, and writes rows 2000·t .. 2000·t + 1999 of the 50000 × 256 result.
  What it writes is the graph-convolution layer of its blocks (`Block.out_eq`), and the layer of a block of rows is
  the block of rows of the layer of the arrays (`GraphConv.conv_restrict`); the 25 blocks of rows tile the result
  (row r lies in the block of point r / 2000). So the result array ends holding the layer of the three arrays.
-/
import proofs.«154609_j27951647162602_1_alg».proof.Proof.Gen.KernelIdeal.Value
import proofs.«154609_j27951647162602_1_alg».proof.Proof.KernelBlock

noncomputable section

namespace Cert.KernelIdeal.Layer

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-- The printed index maps over the grid: the features', the aggregated array's and the result's block of rows is
    the point's number, every block starts at column 0, and the weight matrix's one block never moves. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of point `t`'s blocks is row 2000·t + r of the arrays. -/
def rowOf (t : Fin cfg0.N) (r : Fin 2000) : Fin 50000 :=
  ⟨t.val * 2000 + r.val, by have hN : cfg0.N = 25 := N_0; have := t.isLt; have := r.isLt; omega⟩

/-! ## Where each window's block sits in its array -/

theorem feat_at (t : Fin cfg0.N) (r : Fin 2000) (k : Fin 128) :
    ((cfg0.win 0).blk t).view.emb (ix2 r k) = ix2 (rowOf t r) k := by
  obtain ⟨e0, e1, -⟩ := idx_facts t
  funext a; apply Fin.ext
  match a with
  | ⟨0, _⟩ => show win0_0.index t (0 : Fin 2) * 2000 + 1 * r.val = t.val * 2000 + r.val; omega
  | ⟨1, _⟩ => show win0_0.index t (1 : Fin 2) * 128 + 1 * k.val = k.val; omega

theorem agg_at (t : Fin cfg0.N) (r : Fin 2000) (k : Fin 128) :
    ((cfg0.win 1).blk t).view.emb (ix2 r k) = ix2 (rowOf t r) k := by
  obtain ⟨-, -, e2, e3, -⟩ := idx_facts t
  funext a; apply Fin.ext
  match a with
  | ⟨0, _⟩ => show win0_1.index t (0 : Fin 2) * 2000 + 1 * r.val = t.val * 2000 + r.val; omega
  | ⟨1, _⟩ => show win0_1.index t (1 : Fin 2) * 128 + 1 * k.val = k.val; omega

theorem weight_at (t : Fin cfg0.N) (k j : Fin 128) :
    ((cfg0.win 2).blk t).view.emb (ix2 k j) = ix2 k j := by
  obtain ⟨-, -, -, -, e4, e5, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * j.val = j.val; omega

theorem out_at (t : Fin cfg0.N) (r : Fin 2000) (j : Fin 256) :
    ((cfg0.win 3).blk t).view.emb (ix2 r j) = ix2 (rowOf t r) j := by
  obtain ⟨-, -, -, -, -, -, e6, e7⟩ := idx_facts t
  funext a; apply Fin.ext
  match a with
  | ⟨0, _⟩ => show win0_3.index t (0 : Fin 2) * 2000 + 1 * r.val = t.val * 2000 + r.val; omega
  | ⟨1, _⟩ => show win0_3.index t (1 : Fin 2) * 256 + 1 * j.val = j.val; omega

/-! ## What a point writes back, and the whole array -/

/-- What point `t` writes back is block `t` of the layer of the arrays as the kernel finds them. -/
theorem flushed_eq (c : Dev nD) (t : Fin cfg0.N) :
    (dats m 0 c).flushed 3 t = ((cfg0.win 3).blk t).view.read (Elt Ideal)
      (conv (V m c main_arg0 : S50000x128.Idx → EReal) (V m c main_v26 : S50000x128.Idx → EReal) (V m c main_arg2 : S128x128.Idx → EReal)) := by
  rw [Value.flushed3, Block.out_eq]
  funext j
  show conv (fun x => (V m c main_arg0 : S50000x128.Idx → EReal) (((cfg0.win 0).blk t).view.emb x))
      (fun x => (V m c main_v26 : S50000x128.Idx → EReal) (((cfg0.win 1).blk t).view.emb x))
      (fun z => (V m c main_arg2 : S128x128.Idx → EReal) (((cfg0.win 2).blk t).view.emb z)) j
    = conv (V m c main_arg0 : S50000x128.Idx → EReal) (V m c main_v26 : S50000x128.Idx → EReal) (V m c main_arg2 : S128x128.Idx → EReal)
      (((cfg0.win 3).blk t).view.emb j)
  exact conv_restrict _ _ _ (rowOf t) _ _ _ _ (feat_at t) (agg_at t) (weight_at t) (out_at t) j

/-- An index of the result array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v27).slice (win0_3.rect t)).set ↔ _
  rw [View.set_slice_whole, Rect.mem_set_unit]
  exact Iff.rfl

/-- Every index of the result array lies in some point's block: row r in the block of point r / 2000. -/
theorem cover (i : S50000x256.Idx) : ∃ t : Fin cfg0.N, (cfg0.win 3).flush t = true ∧ i ∈ ((cfg0.win 3).blk t).view.set := by
  have hN : cfg0.N = 25 := N_0
  have hi0 : (i 0).val < 50000 := idx2_lt0 i
  have hi1 : (i 1).val < 256 := idx2_lt1 i
  have ht : (i 0).val / 2000 < cfg0.N := by rw [hN]; omega
  refine ⟨⟨(i 0).val / 2000, ht⟩, flush0_3 _, ?_⟩
  rw [mem_blk]
  obtain ⟨-, -, -, -, -, -, e6, e7⟩ := idx_facts ⟨(i 0).val / 2000, ht⟩
  have e6' : win0_3.index ⟨(i 0).val / 2000, ht⟩ (0 : Fin 2) = (i 0).val / 2000 := e6
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    omega

/-- The result array after the run: the layer of the features and weights as launched and of the aggregated array
    as the host operations before the kernel leave it. -/
theorem final (c : Dev nD) :
    (dats m 0 c).arrAt 3 cfg0.N
      = conv (m ((c : Thread nD τ).loc main_arg0) : S50000x128.Idx → EReal) (V m c main_v26 : S50000x128.Idx → EReal)
          (m ((c : Thread nD τ).loc main_arg2) : S128x128.Idx → EReal) := by
  have h := (dats m 0 c).arrAt_eq_of_cover 3
    (conv (V m c main_arg0 : S50000x128.Idx → EReal) (V m c main_v26 : S50000x128.Idx → EReal) (V m c main_arg2 : S128x128.Idx → EReal))
    (fun t _ => flushed_eq m c t) cover
  rw [V_main_arg0, V_main_arg2] at h
  exact h

/-- The kernel's run with its result array named: every weakly fair execution terminates with the result at the
    layer, the arguments unchanged. -/
theorem run : θ_run defs (onTc (τ := τ) (main (F := Ideal))) ⟨m, fun _ => 0, ρ⟩ fun r => ∀ c : Dev nD,
      r.2.mem ((c : Thread nD τ).loc main_v27)
        = conv (m ((c : Thread nD τ).loc main_arg0) : S50000x128.Idx → EReal) (V m c main_v26 : S50000x128.Idx → EReal)
            (m ((c : Thread nD τ).loc main_arg2) : S128x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.Aggregated.lean ====
/-
  The array of aggregated neighbour features is one function of the features and the edge list in both programs.
  Before its kernel the kernel's program computes, on the host, for each node the sum of the features of the source
  nodes of the edges that end at it, the number of such edges, the quotient of the sum by max(count, 1), and 0 where
  the count is 0. The reference computes its `aggregated` array by the same operations in the same order on the same
  operands (it slices the row of edge ends out of the edge list twice where the kernel's program does it once, which
  is the same value). So the array the kernel's window reads is the reference's stage, operation for operation; the
  operations (a gather, two scatter-adds, a division, a select) are never opened.
-/
import proofs.«154609_j27951647162602_1_alg».proof.Proof.Gen.KernelIdeal.Frame
import proofs.«154609_j27951647162602_1_alg».proof.Proof.RefRead
import Idealize.ShloMosaic.Lib.StableHlo.Run

noncomputable section

namespace Cert.KernelIdeal.Aggregated

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- The array the kernel's second window reads, as the host operations before the kernel leave it, is the
    reference's aggregated array of the launch contents of the features and the edge list. -/
theorem agg_eq (c : Dev nD) :
    (V m c main_v26 : S50000x128.Idx → EReal)
      = Cert.ReferenceIdeal.ReadP.val_main_v29 (F := Ideal) (m ((c : Thread nD τ).loc main_arg0)) (m ((c : Thread nD τ).loc main_arg1)) := by
  dsimp only [V]
  simp only [hostOps0, hostOps0_1, List.flatten_cons, List.flatten_nil, List.append_nil, List.cons_append, List.nil_append]
  after_results_simp
  simp only [TRef.toBuf, TRef.ofBuf, cast_eq]
  generalize (m (c, Proc.tc.devRef main_arg1)) = x1
  generalize (m (c, Proc.tc.devRef main_arg0)) = x0
  rfl

end Cert.KernelIdeal.Aggregated

end
-- ==== Proof.lean ====
/-
  The kernel computes a graph-convolution layer: out = max(concat(features·W, aggregated·W), 0), where row i of
  `aggregated` is the mean of the features of the source nodes of the edges ending at node i (0 for a node no edge
  ends at). The reference is the same layer in plain array operations. The two programs differ in where the two
  matrix products, the concatenation and the clamp are done: the reference does them on whole arrays; the kernel's
  program computes `aggregated` on the host by the reference's own operations and then runs a kernel over 25 blocks
  of 2000 rows, each point multiplying its block of the features and its block of `aggregated` by the whole weight
  matrix (operands narrowed to bf16, which is the identity on the extended reals), clamping, and writing the two
  results side by side.

  On the extended reals both results are ONE function of the arguments, `GraphConv.conv features aggregated W`
  (Proof/Spec.lean): entry (r, j) is max(∑ₖ features[r,k]·W[k,j], 0) for j < 128 and max(∑ₖ aggregated[r,k]·W[k,j-128], 0)
  otherwise.
  · The reference's result is that function (Proof/RefValue.lean): a host matrix product at an entry is the sum over
    the contracted axis, and a concatenation along the columns reads the left operand below column 128 and the
    right one above.
  · The kernel's result is that function (Proof/KernelBlock.lean, Proof/KernelValue.lean): one grid point leaves the
    layer of its blocks, the layer of a block of rows is the block of rows of the layer, and the 25 blocks tile the
    result array.
  · `aggregated` is the same array in both programs (Proof/Aggregated.lean): the same gather, scatter-adds, division
    and select of the same operands, compared as closed terms and never opened.
  No step uses a law of arithmetic that fails at an infinite operand (only that a sum is a sum and a maximum a
  maximum, term by term), so the precondition that the inputs are finite is not used. The idealization changes no
  operation of the kernel's program, so there is nothing to preserve; the three programs' runs terminate without a
  fault and leave their arguments unchanged by the generated frame proofs and the reference's run.
-/
import proofs.«154609_j27951647162602_1_alg».proof.Defs
import proofs.«154609_j27951647162602_1_alg».proof.Proof.Gen.Kernel
import proofs.«154609_j27951647162602_1_alg».proof.Proof.Gen.Kernel.Frame
import proofs.«154609_j27951647162602_1_alg».proof.Proof.Gen.KernelIdeal
import proofs.«154609_j27951647162602_1_alg».proof.Proof.Gen.KernelIdeal.Frame
import proofs.«154609_j27951647162602_1_alg».proof.Proof.Gen.KernelIdeal.Value
import proofs.«154609_j27951647162602_1_alg».proof.Proof.Gen.ReferenceIdeal
import proofs.«154609_j27951647162602_1_alg».proof.Proof.Gen.Pre_finite_inputs
import proofs.«154609_j27951647162602_1_alg».proof.Proof.RefRun
import proofs.«154609_j27951647162602_1_alg».proof.Proof.RefRead
import proofs.«154609_j27951647162602_1_alg».proof.Proof.RefValue
import proofs.«154609_j27951647162602_1_alg».proof.Proof.KernelValue
import proofs.«154609_j27951647162602_1_alg».proof.Proof.Aggregated
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the layer of the features, the aggregated
    array and the weights: the kernel's result array by its 25 blocks of rows, the reference's by its two whole
    matrix products, the aggregated array one term in both. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, Cert.ReferenceIdeal.RefValue.result_eq,
    (hagree c).1, (hagree c).2.1, (hagree c).2.2, Cert.KernelIdeal.Aggregated.agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
